-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x4 : Shape := ⟨2, ![2000000, 4]⟩
abbrev S2000000x1 : Shape := ⟨2, ![2000000, 1]⟩
abbrev S4x4 : Shape := ⟨2, ![4, 4]⟩
abbrev S_ : Shape := ⟨0, ![]⟩

class Facts : Prop where
  bcast_S_S2000000x4 : S_.BroadcastsInDim S2000000x4 (![] : Fin 0 → Fin S2000000x4.rank)
  reducesTo_S2000000x4_S_d0_1 : S2000000x4.ReducesTo [0, 1] S_
  h_S_ : 0 < S_.numel
  bcast_S_S2000000x1 : S_.BroadcastsInDim S2000000x1 (![] : Fin 0 → Fin S2000000x1.rank)
  reducesTo_S2000000x1_S_d0_1 : S2000000x1.ReducesTo [0, 1] S_
  bcast_S_S4x4 : S_.BroadcastsInDim S4x4 (![] : Fin 0 → Fin S4x4.rank)
  reducesTo_S4x4_S_d0_1 : S4x4.ReducesTo [0, 1] S_

variable [Facts]

def fn_part1 {F : FTy → Type} [FloatOps F] (main_arg4 : FVec F S4x4 .f32) (main_v13 : IVec S_ 1) (main_v16 : IVec S2000000x1 1) : IVec S_ 1 :=
  let main_c_5 : IVec S_ 1 := constantI S_ 1 1#1
  let main_v17 : IVec S_ 1 := (fun x v => Host.reduce IntOp.andi x v reducesTo_S2000000x1_S_d0_1 h_S_) main_v16 main_c_5
  let main_v18 : IVec S_ 1 := andi main_v13 main_v17
  let main_v19 : FVec F S4x4 .f32 := Host.absf main_arg4
  let main_cst_6 : FVec F S_ .f32 := constant S_ .f32 0x7F800000#32
  let main_v20 : FVec F S4x4 .f32 := broadcastInDim S4x4 ![] bcast_S_S4x4 main_cst_6
  let main_v21 : IVec S4x4 1 := cmpf .olt main_v19 main_v20
  let main_c_7 : IVec S_ 1 := constantI S_ 1 1#1
  let main_v22 : IVec S_ 1 := (fun x v => Host.reduce IntOp.andi x v reducesTo_S4x4_S_d0_1 h_S_) main_v21 main_c_7
  let main_v23 : IVec S_ 1 := andi main_v18 main_v22
  main_v23

def fn {F : FTy → Type} [FloatOps F] (main_arg0 : FVec F S2000000x4 .f32) (main_arg1 : FVec F S2000000x4 .f32) (main_arg2 : FVec F S2000000x4 .f32) (main_arg3 : FVec F S2000000x1 .f32) (main_arg4 : FVec F S4x4 .f32) : IVec S_ 1 :=
  let main_v0 : FVec F S2000000x4 .f32 := Host.absf main_arg0
  let main_cst : FVec F S_ .f32 := constant S_ .f32 0x7F800000#32
  let main_v1 : FVec F S2000000x4 .f32 := broadcastInDim S2000000x4 ![] bcast_S_S2000000x4 main_cst
  let main_v2 : IVec S2000000x4 1 := cmpf .olt main_v0 main_v1
  let main_c : IVec S_ 1 := constantI S_ 1 1#1
  let main_v3 : IVec S_ 1 := (fun x v => Host.reduce IntOp.andi x v reducesTo_S2000000x4_S_d0_1 h_S_) main_v2 main_c
  let main_v4 : FVec F S2000000x4 .f32 := Host.absf main_arg1
  let main_cst_0 : FVec F S_ .f32 := constant S_ .f32 0x7F800000#32
  let main_v5 : FVec F S2000000x4 .f32 := broadcastInDim S2000000x4 ![] bcast_S_S2000000x4 main_cst_0
  let main_v6 : IVec S2000000x4 1 := cmpf .olt main_v4 main_v5
  let main_c_1 : IVec S_ 1 := constantI S_ 1 1#1
  let main_v7 : IVec S_ 1 := (fun x v => Host.reduce IntOp.andi x v reducesTo_S2000000x4_S_d0_1 h_S_) main_v6 main_c_1
  let main_v8 : IVec S_ 1 := andi main_v3 main_v7
  let main_v9 : FVec F S2000000x4 .f32 := Host.absf main_arg2
  let main_cst_2 : FVec F S_ .f32 := constant S_ .f32 0x7F800000#32
  let main_v10 : FVec F S2000000x4 .f32 := broadcastInDim S2000000x4 ![] bcast_S_S2000000x4 main_cst_2
  let main_v11 : IVec S2000000x4 1 := cmpf .olt main_v9 main_v10
  let main_c_3 : IVec S_ 1 := constantI S_ 1 1#1
  let main_v12 : IVec S_ 1 := (fun x v => Host.reduce IntOp.andi x v reducesTo_S2000000x4_S_d0_1 h_S_) main_v11 main_c_3
  let main_v13 : IVec S_ 1 := andi main_v8 main_v12
  let main_v14 : FVec F S2000000x1 .f32 := Host.absf main_arg3
  let main_cst_4 : FVec F S_ .f32 := constant S_ .f32 0x7F800000#32
  let main_v15 : FVec F S2000000x1 .f32 := broadcastInDim S2000000x1 ![] bcast_S_S2000000x1 main_cst_4
  let main_v16 : IVec S2000000x1 1 := cmpf .olt main_v14 main_v15
  fn_part1 (F := F) main_arg4 main_v13 main_v16
-- ==== Kernel.lean ====
abbrev S2000000x4 : Shape := ⟨2, ![2000000, 4]⟩
abbrev S2000000x1 : Shape := ⟨2, ![2000000, 1]⟩
abbrev S4x4 : Shape := ⟨2, ![4, 4]⟩
abbrev S100000x4 : Shape := ⟨2, ![100000, 4]⟩
abbrev S100000x1 : Shape := ⟨2, ![100000, 1]⟩

abbrev nBuf : Space → Nat
  | .hbm => 6
  | .vmem => 11
  | .smem => 0
  | _ => 0

abbrev bufTy : (tb : Table) → Fin (tcTables nBuf tb) → BufTy
  | .hbm, ⟨0, _⟩ => ⟨S2000000x4, .f32⟩
  | .hbm, ⟨1, _⟩ => ⟨S2000000x4, .f32⟩
  | .hbm, ⟨2, _⟩ => ⟨S2000000x4, .f32⟩
  | .hbm, ⟨3, _⟩ => ⟨S2000000x1, .f32⟩
  | .hbm, ⟨4, _⟩ => ⟨S4x4, .f32⟩
  | .hbm, ⟨5, _⟩ => ⟨S2000000x4, .f32⟩
  | .local _ .vmem, ⟨0, _⟩ => ⟨S100000x4, .f32⟩
  | .local _ .vmem, ⟨1, _⟩ => ⟨S100000x4, .f32⟩
  | .local _ .vmem, ⟨2, _⟩ => ⟨S100000x4, .f32⟩
  | .local _ .vmem, ⟨3, _⟩ => ⟨S100000x4, .f32⟩
  | .local _ .vmem, ⟨4, _⟩ => ⟨S100000x4, .f32⟩
  | .local _ .vmem, ⟨5, _⟩ => ⟨S100000x4, .f32⟩
  | .local _ .vmem, ⟨6, _⟩ => ⟨S100000x1, .f32⟩
  | .local _ .vmem, ⟨7, _⟩ => ⟨S100000x1, .f32⟩
  | .local _ .vmem, ⟨8, _⟩ => ⟨S4x4, .f32⟩
  | .local _ .vmem, ⟨9, _⟩ => ⟨S100000x4, .f32⟩
  | .local _ .vmem, ⟨10, _⟩ => ⟨S100000x4, .f32⟩
  | _, _ => ⟨S2000000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S100000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S100000x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S100000x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S100000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S100000x4 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S100000x4_S100000x4_0_0 : ∀ a, (![0, 0] : Fin 2 → Nat) a + S100000x4.size a ≤ S100000x4.size a
  h_S100000x4 : 0 < S100000x4.numel
  inb_S100000x1_S100000x1_0_0 : ∀ a, (![0, 0] : Fin 2 → Nat) a + S100000x1.size a ≤ S100000x1.size a
  h_S100000x1 : 0 < S100000x1.numel
  inb_S4x4_S4x4_0_0 : ∀ a, (![0, 0] : Fin 2 → Nat) a + S4x4.size a ≤ S4x4.size a
  h_S4x4 : 0 < S4x4.numel
  transposes_S4x4_p1_0_S4x4 : S4x4.Transposes [1, 0] S4x4
  broadcasts_S100000x1_S100000x4 : S100000x1.Broadcasts S100000x4
  dot_S100000x4_S4x4_S100000x4_1_0_0_1_n_n_wf : DotDims.WF S100000x4 S4x4 S100000x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S100000x4.size a ≤ S2000000x4.size a
  hwx0_0 : ∀ i : grid0.Coords, EltTy.bits .f32 = 32 ∨ (Rect.block (s := S2000000x4) S100000x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S100000x4.size a ≤ S2000000x4.size a
  hwx0_1 : ∀ i : grid0.Coords, EltTy.bits .f32 = 32 ∨ (Rect.block (s := S2000000x4) S100000x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S100000x4.size a ≤ S2000000x4.size a
  hwx0_2 : ∀ i : grid0.Coords, EltTy.bits .f32 = 32 ∨ (Rect.block (s := S2000000x4) S100000x4.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S100000x1.size a ≤ S2000000x1.size a
  hwx0_3 : ∀ i : grid0.Coords, EltTy.bits .f32 = 32 ∨ (Rect.block (s := S2000000x1) S100000x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x4.size a ≤ S4x4.size a
  hwx0_4 : ∀ i : grid0.Coords, EltTy.bits .f32 = 32 ∨ (Rect.block (s := S4x4) S4x4.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S100000x4.size a ≤ S2000000x4.size a
  hwx0_5 : ∀ i : grid0.Coords, EltTy.bits .f32 = 32 ∨ (Rect.block (s := S2000000x4) S100000x4.size (cc0_transform_5 i) (hinb0_5 i)).WholeWords (EltTy.packing .f32)

variable [Facts₀]

def dot_S100000x4_S4x4_S100000x4_1_0_0_1_n_n : DotDims S100000x4 S4x4 S100000x4 where
  lhsContracting := [1]
  rhsContracting := [0]
  lhsNonContracting := [0]
  rhsNonContracting := [1]
  lhsBatch := []
  rhsBatch := []
  wf := dot_S100000x4_S4x4_S100000x4_1_0_0_1_n_n_wf

abbrev win0_0 : Pipeline.Window sig grid0 :=
  Pipeline.Window.ofSpec (Memref.whole main_arg0) S100000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S100000x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S100000x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S100000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S4x4.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S100000x4.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2000000x4 : Shape := ⟨2, ![2000000, 4]⟩
abbrev S2000000x1 : Shape := ⟨2, ![2000000, 1]⟩
abbrev S4x4 : Shape := ⟨2, ![4, 4]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2000000x4, .f32⟩
  | .hbm, ⟨1, _⟩ => ⟨S2000000x4, .f32⟩
  | .hbm, ⟨2, _⟩ => ⟨S2000000x4, .f32⟩
  | .hbm, ⟨3, _⟩ => ⟨S2000000x1, .f32⟩
  | .hbm, ⟨4, _⟩ => ⟨S4x4, .f32⟩
  | .hbm, ⟨5, _⟩ => ⟨S2000000x4, .f32⟩
  | .hbm, ⟨6, _⟩ => ⟨S_, .f32⟩
  | .hbm, ⟨7, _⟩ => ⟨S2000000x4, .f32⟩
  | .hbm, ⟨8, _⟩ => ⟨S2000000x4, .f32⟩
  | .hbm, ⟨9, _⟩ => ⟨S2000000x4, .f32⟩
  | .hbm, ⟨10, _⟩ => ⟨S_, .f32⟩
  | .hbm, ⟨11, _⟩ => ⟨S2000000x4, .f32⟩
  | .hbm, ⟨12, _⟩ => ⟨S2000000x4, .f32⟩
  | .hbm, ⟨13, _⟩ => ⟨S2000000x4, .f32⟩
  | .hbm, ⟨14, _⟩ => ⟨S2000000x4, .f32⟩
  | .hbm, ⟨15, _⟩ => ⟨S2000000x4, .f32⟩
  | .hbm, ⟨16, _⟩ => ⟨S_, .f32⟩
  | .hbm, ⟨17, _⟩ => ⟨S2000000x4, .f32⟩
  | .hbm, ⟨18, _⟩ => ⟨S2000000x4, .f32⟩
  | .hbm, ⟨19, _⟩ => ⟨S2000000x4, .f32⟩
  | .hbm, ⟨20, _⟩ => ⟨S2000000x4, .f32⟩
  | .hbm, ⟨21, _⟩ => ⟨S_, .f32⟩
  | .hbm, ⟨22, _⟩ => ⟨S2000000x4, .f32⟩
  | .hbm, ⟨23, _⟩ => ⟨S2000000x4, .f32⟩
  | .hbm, ⟨24, _⟩ => ⟨S2000000x4, .f32⟩
  | .hbm, ⟨25, _⟩ => ⟨S_, .f32⟩
  | .hbm, ⟨26, _⟩ => ⟨S2000000x4, .f32⟩
  | .hbm, ⟨27, _⟩ => ⟨S2000000x4, .f32⟩
  | .hbm, ⟨28, _⟩ => ⟨S2000000x4, .f32⟩
  | .hbm, ⟨29, _⟩ => ⟨S_, .f32⟩
  | .hbm, ⟨30, _⟩ => ⟨S2000000x4, .f32⟩
  | .hbm, ⟨31, _⟩ => ⟨S2000000x4, .f32⟩
  | .hbm, ⟨32, _⟩ => ⟨S2000000x4, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S2000000x4, .f32⟩
  | .hbm, ⟨37, _⟩ => ⟨S2000000x4, .f32⟩
  | .hbm, ⟨38, _⟩ => ⟨S_, .f32⟩
  | .hbm, ⟨39, _⟩ => ⟨S2000000x4, .f32⟩
  | .hbm, ⟨40, _⟩ => ⟨S2000000x4, .f32⟩
  | _, _ => ⟨S2000000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_cst_6 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_v22 : Ref sig .tc := ⟨.hbm, 40, rfl⟩

abbrev nD : Nat := 1
abbrev τ : Topo := Topo.v7x

variable {F : FTy → Type} [FloatOps F]

class Facts₀ : Prop where
  bcast_S_S2000000x4 : S_.BroadcastsInDim S2000000x4 (![] : Fin 0 → Fin S2000000x4.rank)
  bcast_S2000000x1_S2000000x4_0_1 : S2000000x1.BroadcastsInDim S2000000x4 (![0, 1] : Fin 2 → Fin S2000000x4.rank)
  dot_S2000000x4_S4x4_S2000000x4_1_1_0_0_n_n_wf : DotDims.WF S2000000x4 S4x4 S2000000x4 [1] [1] [0] [0] [] []

variable [Facts₀]

def dot_S2000000x4_S4x4_S2000000x4_1_1_0_0_n_n : DotDims S2000000x4 S4x4 S2000000x4 where
  lhsContracting := [1]
  rhsContracting := [1]
  lhsNonContracting := [0]
  rhsNonContracting := [0]
  lhsBatch := []
  rhsBatch := []
  wf := dot_S2000000x4_S4x4_S2000000x4_1_1_0_0_n_n_wf

class Facts : Prop extends Facts₀ where

variable [Facts]
-- ==== Proof.Update.lean ====
/-
  The update this kernel and its reference both compute, stated once and for all over the extended reals.

  A bank of 2,000,000 independent modules, each of four coupled nodes. Node `i` of module `b` carries a state `Z[b,i]`
  and a phase `phase[b,i]`; the module is driven by an external input `ext[b,i]` and entrained toward one phase
  `d[b]` per module. With the coupled neighbours' contribution `nb = ∑ₖ Z[b,k] · coupling[i,k]`, one step is

      new phase   θ = (phase + dt) + κ · sin (d − phase)
      drive       u = ((nb + ext · a) + ½ · cos θ) − a · Z
      new state   min hi (max lo (Z + dt · u))

  with the six constants kept as the binary32 words both programs carry (`dt` = 0x3C23D70A, `a` = 0x3DCCCCCD,
  `κ` = 0x3E99999A, `½` = 0x3F000000, `lo` = 0xBDD2F1AA, `hi` = 0x3DD2F1AA): the same word on both sides is never
  evaluated. `step` is the update of one entry from the five numbers it depends on; `updated` is the whole
  `[2000000, 4]` array as one function of the five argument arrays, entry by entry.
-/
import Idealize.ShloMosaic.Lib.ValueIdx
import Idealize.ShloMosaic.PureOps.Ideal

noncomputable section

open scoped BigOperators

namespace Cert.Oscillators

open Idealize.ShloMosaic Idealize.ShloMosaic.ValueIdx

/-- One entry's update: `z` the node's state, `ph` its phase, `ex` its external input, `dp` the module's entraining
    phase, `nb` the coupled neighbours' sum. The grouping of the sums is the one both programs use. -/
def step (z ph ex dp nb : EReal) : EReal :=
  min (Ideal.ofBits .f32 0x3DD2F1AA#32)
    (max (Ideal.ofBits .f32 0xBDD2F1AA#32)
      (z + Ideal.ofBits .f32 0x3C23D70A#32 *
        (((nb + ex * Ideal.ofBits .f32 0x3DCCCCCD#32)
            + Ideal.ofBits .f32 0x3F000000#32 *
                Ideal.cos ((ph + Ideal.ofBits .f32 0x3C23D70A#32) + Ideal.ofBits .f32 0x3E99999A#32 * Ideal.sin (dp - ph)))
          - Ideal.ofBits .f32 0x3DCCCCCD#32 * z)))

/-- Entry `(p, q)` of the updated array: node `q` of module `p`. Its neighbours' sum runs over the module's four
    states against row `q` of the coupling matrix; its entraining phase is the module's one entry of `dp`. -/
def entry (Z ph ex : (⟨2, ![2000000, 4]⟩ : Shape).Idx → EReal) (dp : (⟨2, ![2000000, 1]⟩ : Shape).Idx → EReal)
    (cp : (⟨2, ![4, 4]⟩ : Shape).Idx → EReal) (p : Fin 2000000) (q : Fin 4) : EReal :=
  step (Z (ix2 p q)) (ph (ix2 p q)) (ex (ix2 p q)) (dp (ix2 p (0 : Fin 1))) (∑ k : Fin 4, Z (ix2 p k) * cp (ix2 q k))

/-- The updated array as one function of the five argument arrays. -/
def updated (Z ph ex : (⟨2, ![2000000, 4]⟩ : Shape).Idx → EReal) (dp : (⟨2, ![2000000, 1]⟩ : Shape).Idx → EReal)
    (cp : (⟨2, ![4, 4]⟩ : Shape).Idx → EReal) : (⟨2, ![2000000, 4]⟩ : Shape).Idx → EReal :=
  fun i => entry Z ph ex dp cp (i 0) (i 1)

/-- Read at coordinates. -/
theorem updated_ix2 (Z ph ex : (⟨2, ![2000000, 4]⟩ : Shape).Idx → EReal) (dp : (⟨2, ![2000000, 1]⟩ : Shape).Idx → EReal)
    (cp : (⟨2, ![4, 4]⟩ : Shape).Idx → EReal) (p : Fin 2000000) (q : Fin 4) :
    updated Z ph ex dp cp (ix2 p q) = entry Z ph ex dp cp p q := rfl

end Cert.Oscillators

end
-- ==== Proof.LibLayout.lean ====
/-
  Three small readings of layout operations at an index given by coordinates, for the column forms a row reduction
  with kept dimensions produces: a vector of `a` entries cast to one column `[a, 1]`, a column broadcast along
  the rows `[a, 1] → [a, b]`, and the index a row sum inserts on the reduced axis.
-/
import Idealize.ShloMosaic.Lib.ValueLayout
import Idealize.ShloMosaic.PureOps.Ideal.Laws

namespace Cert.Attn.Layout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a sum along the rows inserts: row `p` with column `k` put back is `(p, k)`. -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A sum along the rows of an `[a, b]` array of extended reals, read at row `p`: the sum of the row's entries. -/
theorem rowSum_apply {a b : ℕ} (src : FVec Ideal ⟨2, ![a, b]⟩ .f32) (h : (⟨2, ![a, b]⟩ : Shape).Reduces [1] (⟨1, ![a]⟩ : Shape))
    (hφ : FKind.Formats .f32) (hacc : (0x00000000#32 : BitVec 32) = FKind.add.neutral .f32 hφ) (p : Fin a) :
    multiReduction .add [1] (⟨1, ![a]⟩ : Shape) src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_row h p k)

end Cert.Attn.Layout
-- ==== Proof.LibMatmulIx.lean ====
/-
  A matrix product of an `[a, K]` array with a `[K, b]` array read at the entry `(p, q)`, at the ideal values:
  the sum over `k` of the left operand's `(p, k)` entry times the right operand's `(k, q)` entry — for a kernel's
  product accumulated into the zero splat (`matmul_zero_ix2`) and for the host's product (`dotGeneral_ix2`), stated
  for any dimension numbers that contract the left operand's columns with the right operand's rows (the four
  coordinate facts `hl0 … hr1`, which a literal record proves by evaluation).
-/
import Idealize.ShloMosaic.Lib.ValueIdx
import Idealize.ShloMosaic.PureOps.Ideal.Laws

namespace MatmulIx

open Idealize.ShloMosaic Idealize.ShloMosaic.ValueIdx

variable {a K b : ℕ} {φ₁ φ₂ : FTy}

/-- The contraction's sum re-indexed by the one contracted coordinate. -/
theorem sum_contr (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (x : (⟨2, ![a, K]⟩ : Shape).Idx → EReal) (w : (⟨2, ![K, b]⟩ : Shape).Idx → EReal) (p : Fin a) (q : Fin b) :
    ∑ k : D.contr.Idx, x (D.lhsIdx (ix2 p q) k) * w (D.rhsIdx (ix2 p q) k) = ∑ k : Fin K, x (ix2 p k) * w (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun c => Fin.ext (by
    match c with
    | ⟨0, _⟩ => exact hl0 _ _
    | ⟨1, _⟩ => exact (hl1 _ _).trans hk)
  have er : D.rhsIdx (ix2 p q) ((contrEquiv1 D K hr hs).symm k) = ix2 k q := funext fun c => Fin.ext (by
    match c with
    | ⟨0, _⟩ => exact (hr0 _ _).trans hk
    | ⟨1, _⟩ => exact hr1 _ _)
  rw [el, er]

/-- A kernel's matrix product into the zero splat, at `(p, q)`: the row of the left operand times the column of the
    right one. -/
theorem matmul_zero_ix2 (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision)
    (x : FVec Ideal ⟨2, ![a, K]⟩ φ₁) (w : FVec Ideal ⟨2, ![K, b]⟩ φ₂) (p : Fin a) (q : Fin b) :
    matmul D prec x w (constant (F := Ideal) ⟨2, ![a, b]⟩ .f32 0x00000000#32) (ix2 p q)
      = ∑ k : Fin K, x (ix2 p k) * w (ix2 k q) :=
  (Ideal.matmul_constant_zero_apply D prec x w (ix2 p q)).trans (sum_contr D hr hs hl0 hl1 hr0 hr1 x w p q)

/-- The host's matrix product at `(p, q)`: the same sum. -/
theorem dotGeneral_ix2 (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision)
    (x : FVec Ideal ⟨2, ![a, K]⟩ φ₁) (w : FVec Ideal ⟨2, ![K, b]⟩ φ₂) (p : Fin a) (q : Fin b) :
    Host.dotGeneral D prec x w (ix2 p q) = ∑ k : Fin K, x (ix2 p k) * w (ix2 k q) :=
  (Ideal.dotGeneral_apply D prec .single x w (ix2 p q)).trans (sum_contr D hr hs hl0 hl1 hr0 hr1 x w p q)

end MatmulIx
-- ==== Proof.Payload.lean ====
/-
  What the kernel's body stores, entry by entry.

  The body loads a block of 100,000 modules — their states, phases and external inputs `[100000, 4]`, their entraining
  phases `[100000, 1]` — and the whole `[4, 4]` coupling matrix, and stores one `[100000, 4]` block. Entry `(p, q)` of
  what it stores is `step` of the three blocks' entries at `(p, q)`, of the entraining phase at `(p, 0)` (the column
  broadcast along the row) and of the matrix product of the states with the TRANSPOSED coupling matrix, accumulated
  into zero: `∑ₖ Z[p,k] · couplingᵀ[k,q] = ∑ₖ Z[p,k] · coupling[q,k]`. Every other operation acts entry by entry.
-/
import proofs.«117847_j5068061409905_1_alg».proof.Proof.Gen.KernelIdeal.Skeleton
import proofs.«117847_j5068061409905_1_alg».proof.Proof.Update
import proofs.«117847_j5068061409905_1_alg».proof.Proof.LibLayout
import proofs.«117847_j5068061409905_1_alg».proof.Proof.LibMatmulIx
import Idealize.ShloMosaic.Lib.ValueLayout

noncomputable section

open scoped BigOperators

namespace Cert.Oscillators.Kernel

open Idealize.ShloMosaic Idealize.ShloMosaic.ValueIdx Cert.KernelIdeal Cert.KernelIdeal.Gen

/-- The states times the transposed coupling matrix, accumulated into zero, at `(p, q)`: the module's four states
    against row `q` of the coupling matrix. -/
theorem neighbours_apply (x0 : FVec Ideal S100000x4 .f32) (x4 : FVec Ideal S4x4 .f32) (p : Fin 100000) (q : Fin 4) :
    matmul dot_S100000x4_S4x4_S100000x4_1_0_0_1_n_n none x0 (transpose S4x4 [1, 0] x4 transposes_S4x4_p1_0_S4x4)
        (constant (F := Ideal) S100000x4 .f32 0x00000000#32) (ix2 p q)
      = ∑ k : Fin 4, x0 (ix2 p k) * x4 (ix2 q k) := by
  refine (MatmulIx.matmul_zero_ix2 dot_S100000x4_S4x4_S100000x4_1_0_0_1_n_n rfl rfl
    (fun i c => ?_) (fun i c => ?_) (fun i c => ?_) (fun i c => ?_) none x0 _ p q).trans ?_
  · unfold DotDims.lhsIdx
    rw [dif_neg (show ¬(0 : Fin S100000x4.rank) ∈ dot_S100000x4_S4x4_S100000x4_1_0_0_1_n_n.lhsBatch by decide),
      dif_pos (show (0 : Fin S100000x4.rank) ∈ dot_S100000x4_S4x4_S100000x4_1_0_0_1_n_n.lhsNonContracting by decide)]
    rfl
  · exact dot_S100000x4_S4x4_S100000x4_1_0_0_1_n_n.lhsIdx_val_of_single rfl i c
  · exact dot_S100000x4_S4x4_S100000x4_1_0_0_1_n_n.rhsIdx_val_of_single rfl i c
  · unfold DotDims.rhsIdx
    rw [dif_neg (show ¬(1 : Fin S4x4.rank) ∈ dot_S100000x4_S4x4_S100000x4_1_0_0_1_n_n.rhsBatch by decide),
      dif_pos (show (1 : Fin S4x4.rank) ∈ dot_S100000x4_S4x4_S100000x4_1_0_0_1_n_n.rhsNonContracting by decide)]
    rfl
  · exact Finset.sum_congr rfl fun k _ =>
      congrArg (x0 (ix2 p k) * ·) (transpose_ix2_apply x4 transposes_S4x4_p1_0_S4x4 k q)

/-- The column of entraining phases broadcast along the rows reads, at `(p, q)`, its entry `(p, 0)`. -/
theorem entrain_apply (x3 : FVec Ideal S100000x1 .f32) (p : Fin 100000) (q : Fin 4) :
    broadcastTo S100000x4 x3 broadcasts_S100000x1_S100000x4 (ix2 p q) = x3 (ix2 p (0 : Fin 1)) :=
  Cert.Attn.Layout.broadcastTo_a1_ab_apply x3 broadcasts_S100000x1_S100000x4 p q

/-- THE STORED BLOCK, at `(p, q)`. -/
theorem stored_apply (x0 x1 x2 : FVec Ideal S100000x4 .f32) (x3 : FVec Ideal S100000x1 .f32) (x4 : FVec Ideal S4x4 .f32)
    (p : Fin 100000) (q : Fin 4) :
    k0_pay1 (F := Ideal) x0 x1 x2 x3 x4 (ix2 p q)
      = step (x0 (ix2 p q)) (x1 (ix2 p q)) (x2 (ix2 p q)) (x3 (ix2 p (0 : Fin 1))) (∑ k : Fin 4, x0 (ix2 p k) * x4 (ix2 q k)) := by
  refine (show k0_pay1 (F := Ideal) x0 x1 x2 x3 x4 (ix2 p q)
      = step (x0 (ix2 p q)) (x1 (ix2 p q)) (x2 (ix2 p q))
          (broadcastTo S100000x4 x3 broadcasts_S100000x1_S100000x4 (ix2 p q))
          (matmul dot_S100000x4_S4x4_S100000x4_1_0_0_1_n_n none x0 (transpose S4x4 [1, 0] x4 transposes_S4x4_p1_0_S4x4)
            (constant (F := Ideal) S100000x4 .f32 0x00000000#32) (ix2 p q)) from rfl).trans ?_
  rw [entrain_apply, neighbours_apply]

end Cert.Oscillators.Kernel

end
-- ==== Proof.Blocks.lean ====
/-
  From the blocks to the whole array.

  The grid has 20 points. Point `t` stages rows `100000·t … 100000·t + 99999` of the states, the phases, the external
  inputs and the entraining phases, and the whole coupling matrix, and writes back the same rows of the result. So
  entry `(p, q)` of what point `t` writes is the updated array's entry at row `100000·t + p`: the three `[100000, 4]`
  blocks and the `[100000, 1]` block are read at that row of their arrays, and the neighbours' sum runs over that
  row of the states. The 20 blocks tile the `[2000000, 4]` result — row `r` lies in block `r / 100000` — so after
  the run the result array is the updated array.
-/
import proofs.«117847_j5068061409905_1_alg».proof.Proof.Gen.KernelIdeal.Value
import proofs.«117847_j5068061409905_1_alg».proof.Proof.Payload

noncomputable section

open scoped BigOperators

namespace Cert.Oscillators.Kernel

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

theorem zero_offsets : (![0, 0] : Fin 2 → Nat) = fun _ => 0 := funext fun a => by fin_cases a <;> rfl

/-- The printed index maps over the 20 grid points: the four row-blocked inputs and the output are at row block `t`,
    column block 0; the coupling matrix is at block (0, 0). -/
theorem index_maps : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The five argument arrays as the region finds them, as arrays of extended reals: the states, -/
abbrev states (c : Dev nD) : S2000000x4.Idx → EReal := V m c main_arg0
/-- the phases, -/
abbrev phases (c : Dev nD) : S2000000x4.Idx → EReal := V m c main_arg1
/-- the external inputs, -/
abbrev inputs (c : Dev nD) : S2000000x4.Idx → EReal := V m c main_arg2
/-- the modules' entraining phases, one column, -/
abbrev entrain (c : Dev nD) : S2000000x1.Idx → EReal := V m c main_arg3
/-- and the coupling matrix. -/
abbrev coupling (c : Dev nD) : S4x4.Idx → EReal := V m c main_arg4

/-- Entry `(p, q)` of the block of states at point `t` is the array's entry at row `r = 100000·t + p`. -/
theorem states_apply (c : Dev nD) (t : Fin cfg0.N) (p : Fin 100000) (q : Fin 4) (r : Fin 2000000)
    (hr : r.val = 100000 * t.val + p.val) :
    (iblk m c 0 t : FVec Ideal S100000x4 .f32) (ix2 p q) = states m c (ix2 r q) := by
  obtain ⟨e0, e1, -⟩ := index_maps t
  show states m c (((cfg0.win 0).blk t).view.emb (ix2 p q)) = _
  refine congrArg _ (funext fun a => Fin.ext ?_)
  match a with
  | ⟨0, _⟩ => show win0_0.index t (0 : Fin 2) * 100000 + 1 * p.val = r.val; omega
  | ⟨1, _⟩ => show win0_0.index t (1 : Fin 2) * 4 + 1 * q.val = q.val; omega

/-- The same for the block of phases, -/
theorem phases_apply (c : Dev nD) (t : Fin cfg0.N) (p : Fin 100000) (q : Fin 4) (r : Fin 2000000)
    (hr : r.val = 100000 * t.val + p.val) :
    (iblk m c 1 t : FVec Ideal S100000x4 .f32) (ix2 p q) = phases m c (ix2 r q) := by
  obtain ⟨-, -, e0, e1, -⟩ := index_maps t
  show phases m c (((cfg0.win 1).blk t).view.emb (ix2 p q)) = _
  refine congrArg _ (funext fun a => Fin.ext ?_)
  match a with
  | ⟨0, _⟩ => show win0_1.index t (0 : Fin 2) * 100000 + 1 * p.val = r.val; omega
  | ⟨1, _⟩ => show win0_1.index t (1 : Fin 2) * 4 + 1 * q.val = q.val; omega

/-- for the block of external inputs, -/
theorem inputs_apply (c : Dev nD) (t : Fin cfg0.N) (p : Fin 100000) (q : Fin 4) (r : Fin 2000000)
    (hr : r.val = 100000 * t.val + p.val) :
    (iblk m c 2 t : FVec Ideal S100000x4 .f32) (ix2 p q) = inputs m c (ix2 r q) := by
  obtain ⟨-, -, -, -, e0, e1, -⟩ := index_maps t
  show inputs m c (((cfg0.win 2).blk t).view.emb (ix2 p q)) = _
  refine congrArg _ (funext fun a => Fin.ext ?_)
  match a with
  | ⟨0, _⟩ => show win0_2.index t (0 : Fin 2) * 100000 + 1 * p.val = r.val; omega
  | ⟨1, _⟩ => show win0_2.index t (1 : Fin 2) * 4 + 1 * q.val = q.val; omega

/-- and for the column of entraining phases, whose one column is column 0. -/
theorem entrain_block_apply (c : Dev nD) (t : Fin cfg0.N) (p : Fin 100000) (r : Fin 2000000)
    (hr : r.val = 100000 * t.val + p.val) :
    (iblk m c 3 t : FVec Ideal S100000x1 .f32) (ix2 p (0 : Fin 1)) = entrain m c (ix2 r (0 : Fin 1)) := by
  obtain ⟨-, -, -, -, -, -, e0, e1, -⟩ := index_maps t
  show entrain m c (((cfg0.win 3).blk t).view.emb (ix2 p (0 : Fin 1))) = _
  refine congrArg _ (funext fun a => Fin.ext ?_)
  match a with
  | ⟨0, _⟩ => show win0_3.index t (0 : Fin 2) * 100000 + 1 * p.val = r.val; omega
  | ⟨1, _⟩ => show win0_3.index t (1 : Fin 2) * 1 + 1 * (0 : Fin 1).val = (0 : Fin 1).val; rw [e1]; rfl

/-- The coupling matrix's one block is the matrix. -/
theorem coupling_apply (c : Dev nD) (t : Fin cfg0.N) (q k : Fin 4) :
    (iblk m c 4 t : FVec Ideal S4x4 .f32) (ix2 q k) = coupling m c (ix2 q k) := by
  obtain ⟨-, -, -, -, -, -, -, -, e0, e1, -⟩ := index_maps t
  show coupling m c (((cfg0.win 4).blk t).view.emb (ix2 q k)) = _
  refine congrArg _ (funext fun a => Fin.ext ?_)
  match a with
  | ⟨0, _⟩ => show win0_4.index t (0 : Fin 2) * 4 + 1 * q.val = q.val; omega
  | ⟨1, _⟩ => show win0_4.index t (1 : Fin 2) * 4 + 1 * k.val = k.val; omega

/-- The argument arrays as the region finds them, as the updated array's five operands. -/
abbrev target (c : Dev nD) : S2000000x4.Idx → EReal :=
  updated (states m c) (phases m c) (inputs m c) (entrain m c) (coupling m c)

/-- Entry `(p, q)` of what the body stores at point `t` is the updated array's entry at row `100000·t + p`. -/
theorem stored_entry (c : Dev nD) (t : Fin cfg0.N) (p : Fin 100000) (q : Fin 4) (r : Fin 2000000)
    (hr : r.val = 100000 * t.val + p.val) :
    k0_pay1 (F := Ideal) (iblk m c 0 t) (iblk m c 1 t) (iblk m c 2 t) (iblk m c 3 t) (iblk m c 4 t) (ix2 p q)
      = target m c (ix2 r q) := by
  refine (stored_apply (iblk m c 0 t) (iblk m c 1 t) (iblk m c 2 t) (iblk m c 3 t) (iblk m c 4 t) p q).trans ?_
  show _ = step (states m c (ix2 r q)) (phases m c (ix2 r q))
      (inputs m c (ix2 r q)) (entrain m c (ix2 r (0 : Fin 1)))
      (∑ k : Fin 4, states m c (ix2 r k) * coupling m c (ix2 q k))
  rw [states_apply m c t p q r hr, phases_apply m c t p q r hr, inputs_apply m c t p q r hr,
    entrain_block_apply m c t p r hr]
  refine congrArg _ (Finset.sum_congr rfl fun k _ => ?_)
  rw [states_apply m c t p k r hr, coupling_apply m c t q k]

/-- WHAT POINT `t` WRITES BACK is block `t` of the updated array. -/
theorem flushed_eq (c : Dev nD) (t : Fin cfg0.N) :
    (dats m 0 c).flushed 5 t = ((cfg0.win 5).blk t).view.read (Elt Ideal) (target m c) := by
  rw [Cert.KernelIdeal.Value.flushed5]
  unfold out0_5
  rw [View.canon_unit_zero zero_offsets]
  simp only [View.ld_unit_zero (S := S100000x4) zero_offsets, View.ld_unit_zero (S := S100000x1) zero_offsets,
    View.ld_unit_zero (S := S4x4) zero_offsets]
  funext j
  obtain ⟨p, q, rfl⟩ : ∃ (p : Fin 100000) (q : Fin 4), j = ix2 p q := ⟨j 0, j 1, eq_ix2 j⟩
  have ht : t.val < 20 := lt_of_lt_of_eq t.isLt N_0
  obtain ⟨-, -, -, -, -, -, -, -, -, -, e0, e1⟩ := index_maps t
  have he : ((cfg0.win 5).blk t).view.emb (ix2 p q) = ix2 (⟨100000 * t.val + p.val, by omega⟩ : Fin 2000000) q :=
    funext fun a => Fin.ext (by
      match a with
      | ⟨0, _⟩ => show win0_5.index t (0 : Fin 2) * 100000 + 1 * p.val = 100000 * t.val + p.val; omega
      | ⟨1, _⟩ => show win0_5.index t (1 : Fin 2) * 4 + 1 * q.val = q.val; omega)
  show k0_pay1 (F := Ideal) (iblk m c 0 t) (iblk m c 1 t) (iblk m c 2 t) (iblk m c 3 t) (iblk m c 4 t) (ix2 p q)
    = target m c (((cfg0.win 5).blk t).view.emb (ix2 p q))
  rw [he]
  exact stored_entry m c t p q _ rfl

/-- An index of the result is in point `t`'s block iff each coordinate is in the block's range on its axis. -/
theorem mem_block (t : Fin cfg0.N) (i : S2000000x4.Idx) :
    i ∈ ((cfg0.win 5).blk t).view.set ↔ ∀ a : Fin 2, win0_5.index t a * S100000x4.size a ≤ (i a).val
      ∧ (i a).val < win0_5.index t a * S100000x4.size a + S100000x4.size a := by
  show i ∈ ((View.whole main_v0).slice (win0_5.rect t)).set ↔ _
  rw [View.set_slice_whole, Rect.mem_set_unit]
  exact Iff.rfl

/-- Every index of the result lies in a block some point writes back: row `r` in block `r / 100000`. -/
theorem covered (i : S2000000x4.Idx) :
    ∃ t : Fin cfg0.N, (cfg0.win 5).flush t = true ∧ i ∈ ((cfg0.win 5).blk t).view.set := by
  have h0 : (i 0).val < 2000000 := (i 0).isLt
  have h1 : (i 1).val < 4 := (i 1).isLt
  have hN : cfg0.N = 20 := N_0
  refine ⟨⟨(i 0).val / 100000, by rw [hN]; omega⟩, flush0_5 _, ?_⟩
  rw [mem_block]
  obtain ⟨-, -, -, -, -, -, -, -, -, -, e0, e1⟩ := index_maps ⟨(i 0).val / 100000, by rw [hN]; omega⟩
  intro a
  match a with
  | ⟨0, _⟩ =>
    show win0_5.index _ (0 : Fin 2) * 100000 ≤ (i 0).val ∧ (i 0).val < win0_5.index _ (0 : Fin 2) * 100000 + 100000
    rw [e0]; show (i 0).val / 100000 * 100000 ≤ (i 0).val ∧ (i 0).val < (i 0).val / 100000 * 100000 + 100000; omega
  | ⟨1, _⟩ =>
    show win0_5.index _ (1 : Fin 2) * 4 ≤ (i 1).val ∧ (i 1).val < win0_5.index _ (1 : Fin 2) * 4 + 4
    rw [e1]; omega

/-- THE RESULT ARRAY after the run is the updated array of the arguments as launched. -/
theorem final (c : Dev nD) : (dats m 0 c).arrAt 5 cfg0.N
    = updated (m ((c : Thread nD τ).loc main_arg0)) (m ((c : Thread nD τ).loc main_arg1)) (m ((c : Thread nD τ).loc main_arg2))
        (m ((c : Thread nD τ).loc main_arg3)) (m ((c : Thread nD τ).loc main_arg4)) :=
  (dats m 0 c).arrAt_eq_of_cover 5 (target m c) (fun t _ => flushed_eq m c t) covered

/-- The kernel's run, read: the result array ends at the updated array, the arguments unchanged. -/
theorem run : θ_run defs (onTc (τ := τ) (main (F := Ideal))) ⟨m, fun _ => 0, ρ⟩ fun r => ∀ c : Dev nD,
      r.2.mem ((c : Thread nD τ).loc main_v0)
        = updated (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩)
    (Cert.KernelIdeal.Value.run_blocks m ρ)

end Cert.Oscillators.Kernel

end
-- ==== Proof.RefValue.lean ====
/-
  The reference's result is the updated array.

  Read one operation at a time, entry `(p, q)` of the host program's result is `step` of the entries of `Z`, `phase`
  and the external input at `(p, q)`, of the entraining phase at `(p, 0)` — the `[2000000, 1]` column broadcast
  along the rows — and of the product of `Z` with the coupling matrix contracted over both operands' second axes,
  `∑ₖ Z[p,k] · coupling[q,k]`. The six constants are splat scalars, read as their words; the host's sine and cosine
  are, on the extended reals, the same functions the kernel applies.
-/
import proofs.«117847_j5068061409905_1_alg».proof.Proof.Gen.ReferenceIdeal.Read
import proofs.«117847_j5068061409905_1_alg».proof.Proof.Update

noncomputable section

open scoped BigOperators

namespace Cert.Oscillators.Reference

open Idealize.ShloMosaic Idealize.ShloMosaic.ValueIdx Cert.ReferenceIdeal Cert.ReferenceIdeal.Read

/-- The left operand of the contraction at output `(p, q)` and contracted coordinate `k`: `Z` at `(p, k)`. -/
theorem lidx_eq (p : Fin 2000000) (q k : Fin 4) : lidx_main_v0 (ix2 p q) k = ix2 p k :=
  funext fun a => Fin.ext (by match a with | ⟨0, _⟩ => rfl | ⟨1, _⟩ => rfl)

/-- The right operand there: the coupling matrix at `(q, k)`. -/
theorem ridx_eq (p : Fin 2000000) (q k : Fin 4) : ridx_main_v0 (ix2 p q) k = ix2 q k :=
  funext fun a => Fin.ext (by match a with | ⟨0, _⟩ => rfl | ⟨1, _⟩ => rfl)

/-- The column of entraining phases broadcast along the rows reads, at `(p, q)`, its entry `(p, 0)`. -/
theorem didx_eq (p : Fin 2000000) (q : Fin 4) : idx_main_v6 (ix2 p q) = ix2 p (0 : Fin 1) :=
  funext fun a => Fin.ext (by match a with | ⟨0, _⟩ => rfl | ⟨1, _⟩ => rfl)

/-- The host program's result, as a function of its five arguments, is the updated array. -/
theorem result_eq (x0 x1 x2 : (⟨S2000000x4, .f32⟩ : BufTy).Contents (Elt Ideal))
    (x3 : (⟨S2000000x1, .f32⟩ : BufTy).Contents (Elt Ideal)) (x4 : (⟨S4x4, .f32⟩ : BufTy).Contents (Elt Ideal)) :
    val_main_v22 (F := Ideal) x0 x1 x2 x3 x4 = updated x0 x1 x2 x3 x4 := by
  funext i
  obtain ⟨p, q, rfl⟩ : ∃ (p : Fin 2000000) (q : Fin 4), i = ix2 p q := ⟨i 0, i 1, eq_ix2 i⟩
  rw [updated_ix2]
  rw [val_main_v22_apply, val_main_call0_v4_apply, val_main_call0_v3_apply, val_main_cst_6_apply,
    val_main_call0_v2_apply, val_main_call0_v1_apply, val_main_call0_v0_apply, val_main_cst_5_apply,
    val_main_v21_apply, val_main_v20_apply, val_main_v19_apply, val_main_cst_4_apply,
    val_main_v18_apply, val_main_v15_apply, val_main_v3_apply, val_main_v0_apply, val_main_v2_apply,
    val_main_v1_apply, val_main_cst_apply, val_main_v14_apply, val_main_v13_apply, val_main_cst_2_apply,
    val_main_v12_apply, val_main_v11_apply, val_main_v5_apply, val_main_v4_apply, val_main_cst_0_apply,
    val_main_v10_apply, val_main_v9_apply, val_main_cst_1_apply, val_main_v8_apply, val_main_v7_apply,
    val_main_v6_apply, val_main_v17_apply, val_main_v16_apply, val_main_cst_3_apply]
  simp only [lidx_eq, ridx_eq, didx_eq]
  rfl

end Cert.Oscillators.Reference

end
-- ==== Proof.lean ====
/-
  A bank of 2,000,000 four-node oscillator modules advanced by one step: the tiled kernel against its plain reference,
  over the extended reals.

  Both programs compute, for node `q` of module `p`, the same number (`Cert.Oscillators.step`, Proof/Update.lean):
  the new phase `θ = (phase + dt) + κ · sin (d − phase)`, the drive
  `u = ((∑ₖ Z[p,k] · coupling[q,k] + ext · a) + ½ · cos θ) − a · Z`, and the clamped new state
  `min hi (max lo (Z + dt · u))`, with the same six binary32 constants. They differ only in how the work is laid out:

    * the kernel walks 20 blocks of 100,000 modules, multiplies each block of states by the TRANSPOSED coupling
      matrix into a zero accumulator, and broadcasts the column of entraining phases along each row;
    * the reference contracts the states with the coupling matrix over both operands' second axes in one product,
      broadcasts the same column over the whole array, and clamps through an outlined helper.

  On the extended reals a product accumulated into zero is the plain sum, a contraction with the transposed matrix
  over its rows is the contraction with the matrix over its columns, and sine and cosine are one function on either
  side; so entry by entry the two results are the same term, and no property of the inputs is used: the precondition
  (every input finite) is never opened.

  Proof/Payload.lean reads the kernel body's stored block at an entry; Proof/Blocks.lean carries that from the 20
  blocks to the whole result array; Proof/RefValue.lean reads the reference's result at an entry; here the three
  frames, the (empty) idealization ledger and the equality of the two runs' results are assembled.
-/
import proofs.«117847_j5068061409905_1_alg».proof.Defs
import proofs.«117847_j5068061409905_1_alg».proof.Proof.Gen.Kernel
import proofs.«117847_j5068061409905_1_alg».proof.Proof.Gen.Kernel.Frame
import proofs.«117847_j5068061409905_1_alg».proof.Proof.Gen.KernelIdeal
import proofs.«117847_j5068061409905_1_alg».proof.Proof.Gen.KernelIdeal.Frame
import proofs.«117847_j5068061409905_1_alg».proof.Proof.Gen.KernelIdeal.Value
import proofs.«117847_j5068061409905_1_alg».proof.Proof.Gen.ReferenceIdeal
import proofs.«117847_j5068061409905_1_alg».proof.Proof.Gen.ReferenceIdeal.Run
import proofs.«117847_j5068061409905_1_alg».proof.Proof.Gen.ReferenceIdeal.Read
import proofs.«117847_j5068061409905_1_alg».proof.Proof.Gen.Pre_finite_inputs
import proofs.«117847_j5068061409905_1_alg».proof.Proof.Blocks
import proofs.«117847_j5068061409905_1_alg».proof.Proof.RefValue

noncomputable section

namespace Cert.Proof

open Idealize.ShloMosaic Idealize.ShloMosaic.TcCoe Idealize.SL.Sem

/-- The word-level kernel terminates without a fault and leaves its arguments as launched. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Nothing of the kernel was rewritten to read it over the extended reals. -/
theorem preserves : Cert.preserves_Kernel_KernelIdeal := trivial

/-- From memories that agree on the five arguments, the kernel's result array and the reference's both end at the
    updated array of those arguments. -/
theorem algebraic : Cert.algebraic_KernelIdeal_ReferenceIdeal := by
  intro m ρ m' ρ' _ hagree
  refine ⟨_, Cert.Oscillators.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.Oscillators.Reference.result_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
